-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x512 : Shape := ⟨3, ![8, 1024, 512]⟩
abbrev S8x256x512 : Shape := ⟨3, ![8, 256, 512]⟩
abbrev S_ : Shape := ⟨0, ![]⟩

class Facts : Prop where
  bcast_S_S8x1024x512 : S_.BroadcastsInDim S8x1024x512 (![] : Fin 0 → Fin S8x1024x512.rank)
  reducesTo_S8x1024x512_S_d0_1_2 : S8x1024x512.ReducesTo [0, 1, 2] S_
  h_S_ : 0 < S_.numel
  bcast_S_S8x256x512 : S_.BroadcastsInDim S8x256x512 (![] : Fin 0 → Fin S8x256x512.rank)
  reducesTo_S8x256x512_S_d0_1_2 : S8x256x512.ReducesTo [0, 1, 2] S_

variable [Facts]

def fn {F : FTy → Type} [FloatOps F] (main_arg0 : FVec F S8x1024x512 .f32) (main_arg1 : FVec F S8x256x512 .f32) : IVec S_ 1 :=
  let main_v0 : FVec F S8x1024x512 .f32 := Host.absf main_arg0
  let main_cst : FVec F S_ .f32 := constant S_ .f32 0x7F800000#32
  let main_v1 : FVec F S8x1024x512 .f32 := broadcastInDim S8x1024x512 ![] bcast_S_S8x1024x512 main_cst
  let main_v2 : IVec S8x1024x512 1 := cmpf .olt main_v0 main_v1
  let main_c : IVec S_ 1 := constantI S_ 1 1#1
  let main_v3 : IVec S_ 1 := (fun x v => Host.reduce IntOp.andi x v reducesTo_S8x1024x512_S_d0_1_2 h_S_) main_v2 main_c
  let main_v4 : FVec F S8x256x512 .f32 := Host.absf main_arg1
  let main_cst_0 : FVec F S_ .f32 := constant S_ .f32 0x7F800000#32
  let main_v5 : FVec F S8x256x512 .f32 := broadcastInDim S8x256x512 ![] bcast_S_S8x256x512 main_cst_0
  let main_v6 : IVec S8x256x512 1 := cmpf .olt main_v4 main_v5
  let main_c_1 : IVec S_ 1 := constantI S_ 1 1#1
  let main_v7 : IVec S_ 1 := (fun x v => Host.reduce IntOp.andi x v reducesTo_S8x256x512_S_d0_1_2 h_S_) main_v6 main_c_1
  let main_v8 : IVec S_ 1 := andi main_v3 main_v7
  main_v8
-- ==== Kernel.lean ====
abbrev S8x1024x512 : Shape := ⟨3, ![8, 1024, 512]⟩
abbrev S8x256x512 : Shape := ⟨3, ![8, 256, 512]⟩
abbrev S8x64x4x512 : Shape := ⟨4, ![8, 64, 4, 512]⟩
abbrev S8x1024x64 : Shape := ⟨3, ![8, 1024, 64]⟩
abbrev S2x1024x512 : Shape := ⟨3, ![2, 1024, 512]⟩
abbrev S2x64x4x512 : Shape := ⟨4, ![2, 64, 4, 512]⟩
abbrev S2x1024x64 : Shape := ⟨3, ![2, 1024, 64]⟩
abbrev S2x64x512 : Shape := ⟨3, ![2, 64, 512]⟩
abbrev S2x1024 : Shape := ⟨2, ![2, 1024]⟩
abbrev S2x1024x1 : Shape := ⟨3, ![2, 1024, 1]⟩
abbrev S2x64 : Shape := ⟨2, ![2, 64]⟩
abbrev S2x1x64 : Shape := ⟨3, ![2, 1, 64]⟩

abbrev nBuf : Space → Nat
  | .hbm => 4
  | .vmem => 6
  | .smem => 0
  | _ => 0

abbrev bufTy : (tb : Table) → Fin (tcTables nBuf tb) → BufTy
  | .hbm, ⟨0, _⟩ => ⟨S8x1024x512, .f32⟩
  | .hbm, ⟨1, _⟩ => ⟨S8x256x512, .f32⟩
  | .hbm, ⟨2, _⟩ => ⟨S8x64x4x512, .f32⟩
  | .hbm, ⟨3, _⟩ => ⟨S8x1024x64, .f32⟩
  | .local _ .vmem, ⟨0, _⟩ => ⟨S2x1024x512, .f32⟩
  | .local _ .vmem, ⟨1, _⟩ => ⟨S2x1024x512, .f32⟩
  | .local _ .vmem, ⟨2, _⟩ => ⟨S2x64x4x512, .f32⟩
  | .local _ .vmem, ⟨3, _⟩ => ⟨S2x64x4x512, .f32⟩
  | .local _ .vmem, ⟨4, _⟩ => ⟨S2x1024x64, .f32⟩
  | .local _ .vmem, ⟨5, _⟩ => ⟨S2x1024x64, .f32⟩
  | _, _ => ⟨S8x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x64x4x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S8x256x512_S8x64x4x512 : S8x256x512.ShapeCasts S8x64x4x512
  inb_S2x64x4x512_S2x64x4x512_0_0_0_0 : ∀ a, (![0, 0, 0, 0] : Fin 4 → Nat) a + S2x64x4x512.size a ≤ S2x64x4x512.size a
  h_S2x64x4x512 : 0 < S2x64x4x512.numel
  shapeCasts_S2x64x4x512_S2x64x4x512 : S2x64x4x512.ShapeCasts S2x64x4x512
  reduces_S2x64x4x512_S2x64x512 : S2x64x4x512.Reduces [2] S2x64x512
  inb_S2x1024x512_S2x1024x512_0_0_0 : ∀ a, (![0, 0, 0] : Fin 3 → Nat) a + S2x1024x512.size a ≤ S2x1024x512.size a
  h_S2x1024x512 : 0 < S2x1024x512.numel
  reduces_S2x1024x512_S2x1024 : S2x1024x512.Reduces [2] S2x1024
  shapeCasts_S2x1024_S2x1024x1 : S2x1024.ShapeCasts S2x1024x1
  reduces_S2x64x512_S2x64 : S2x64x512.Reduces [2] S2x64
  bitsLt_bf16_f32 : FTy.bits .bf16 < FTy.bits .f32
  broadcasts_S2x1024x1_S2x1024x64 : S2x1024x1.Broadcasts S2x1024x64
  shapeCasts_S2x64_S2x1x64 : S2x64.ShapeCasts S2x1x64
  broadcasts_S2x1x64_S2x1024x64 : S2x1x64.Broadcasts S2x1024x64
  inb_S2x1024x64_S2x1024x64_0_0_0 : ∀ a, (![0, 0, 0] : Fin 3 → Nat) a + S2x1024x64.size a ≤ S2x1024x64.size a
  h_S2x1024x64 : 0 < S2x1024x64.numel
  dot_S2x1024x512_S2x64x512_S2x1024x64_2_2_1_1_0_0_wf : DotDims.WF S2x1024x512 S2x64x512 S2x1024x64 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x1024x512.size a ≤ S8x1024x512.size a
  hwx0_0 : ∀ i : grid0.Coords, EltTy.bits .f32 = 32 ∨ (Rect.block (s := S8x1024x512) S2x1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x64x4x512.size a ≤ S8x64x4x512.size a
  hwx0_1 : ∀ i : grid0.Coords, EltTy.bits .f32 = 32 ∨ (Rect.block (s := S8x64x4x512) S2x64x4x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x1024x64.size a ≤ S8x1024x64.size a
  hwx0_2 : ∀ i : grid0.Coords, EltTy.bits .f32 = 32 ∨ (Rect.block (s := S8x1024x64) S2x1024x64.size (cc0_transform_2 i) (hinb0_2 i)).WholeWords (EltTy.packing .f32)

variable [Facts₀]

def dot_S2x1024x512_S2x64x512_S2x1024x64_2_2_1_1_0_0 : DotDims S2x1024x512 S2x64x512 S2x1024x64 where
  lhsContracting := [2]
  rhsContracting := [2]
  lhsNonContracting := [1]
  rhsNonContracting := [1]
  lhsBatch := [0]
  rhsBatch := [0]
  wf := dot_S2x1024x512_S2x64x512_S2x1024x64_2_2_1_1_0_0_wf

abbrev win0_0 : Pipeline.Window sig grid0 :=
  Pipeline.Window.ofSpec (Memref.whole main_arg0) S2x1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2x64x4x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2x1024x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x1024x512 : Shape := ⟨3, ![8, 1024, 512]⟩
abbrev S8x256x512 : Shape := ⟨3, ![8, 256, 512]⟩
abbrev S8x64x4x512 : Shape := ⟨4, ![8, 64, 4, 512]⟩
abbrev S_ : Shape := ⟨0, ![]⟩
abbrev S8x64x512 : Shape := ⟨3, ![8, 64, 512]⟩
abbrev S8x1024x1x512 : Shape := ⟨4, ![8, 1024, 1, 512]⟩
abbrev S8x1x64x512 : Shape := ⟨4, ![8, 1, 64, 512]⟩
abbrev S8x1024x64x512 : Shape := ⟨4, ![8, 1024, 64, 512]⟩
abbrev S8x1024x64 : Shape := ⟨3, ![8, 1024, 64]⟩

abbrev nBuf : Space → Nat
  | .hbm => 17
  | .vmem => 0
  | .smem => 0
  | _ => 0

abbrev bufTy : (tb : Table) → Fin (tcTables nBuf tb) → BufTy
  | .hbm, ⟨0, _⟩ => ⟨S8x1024x512, .f32⟩
  | .hbm, ⟨1, _⟩ => ⟨S8x256x512, .f32⟩
  | .hbm, ⟨2, _⟩ => ⟨S8x64x4x512, .f32⟩
  | .hbm, ⟨3, _⟩ => ⟨S_, .f32⟩
  | .hbm, ⟨4, _⟩ => ⟨S8x64x512, .f32⟩
  | .hbm, ⟨5, _⟩ => ⟨S_, .f32⟩
  | .hbm, ⟨6, _⟩ => ⟨S8x64x512, .f32⟩
  | .hbm, ⟨7, _⟩ => ⟨S8x64x512, .f32⟩
  | .hbm, ⟨8, _⟩ => ⟨S8x1024x1x512, .f32⟩
  | .hbm, ⟨9, _⟩ => ⟨S8x1x64x512, .f32⟩
  | .hbm, ⟨10, _⟩ => ⟨S8x1024x64x512, .f32⟩
  | .hbm, ⟨11, _⟩ => ⟨S8x1024x64x512, .f32⟩
  | .hbm, ⟨12, _⟩ => ⟨S8x1024x64x512, .f32⟩
  | .hbm, ⟨13, _⟩ => ⟨S8x1024x64x512, .f32⟩
  | .hbm, ⟨14, _⟩ => ⟨S_, .f32⟩
  | .hbm, ⟨15, _⟩ => ⟨S8x1024x64, .f32⟩
  | .hbm, ⟨16, _⟩ => ⟨S8x1024x64, .f32⟩
  | _, _ => ⟨S8x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]

class Facts₀ : Prop where
  shapeCasts_S8x256x512_S8x64x4x512 : S8x256x512.ShapeCasts S8x64x4x512
  reducesTo_S8x64x4x512_S8x64x512_d2 : S8x64x4x512.ReducesTo [2] S8x64x512
  h_S_ : 0 < S_.numel
  bcast_S_S8x64x512 : S_.BroadcastsInDim S8x64x512 (![] : Fin 0 → Fin S8x64x512.rank)
  bcast_S8x1024x512_S8x1024x1x512_0_1_3 : S8x1024x512.BroadcastsInDim S8x1024x1x512 (![0, 1, 3] : Fin 3 → Fin S8x1024x1x512.rank)
  bcast_S8x64x512_S8x1x64x512_0_2_3 : S8x64x512.BroadcastsInDim S8x1x64x512 (![0, 2, 3] : Fin 3 → Fin S8x1x64x512.rank)
  bcast_S8x1024x1x512_S8x1024x64x512_0_1_2_3 : S8x1024x1x512.BroadcastsInDim S8x1024x64x512 (![0, 1, 2, 3] : Fin 4 → Fin S8x1024x64x512.rank)
  bcast_S8x1x64x512_S8x1024x64x512_0_1_2_3 : S8x1x64x512.BroadcastsInDim S8x1024x64x512 (![0, 1, 2, 3] : Fin 4 → Fin S8x1024x64x512.rank)
  reducesTo_S8x1024x64x512_S8x1024x64_d3 : S8x1024x64x512.ReducesTo [3] S8x1024x64

variable [Facts₀]

class Facts : Prop extends Facts₀ where

variable [Facts]
-- ==== Proof.Spec.lean ====
/-
  The mathematics of the certificate, with no program in sight.

  A query row `q` and a class prototype `p` are vectors of 512 features. The prototype of a class is the mean of its four
  support rows, feature by feature (`proto`). The quantity computed is minus the squared Euclidean distance,

      -‖q - p‖²  =  -∑ₖ (qₖ - pₖ)²                      (`negSq`),

  and the same number written through the polarization identity

      2·⟨q, p⟩ - ‖q‖² - ‖p‖²  =  2·∑ₖ qₖ·pₖ - ∑ₖ qₖ² - ∑ₖ pₖ²      (`expanded`).

  On the extended reals the two agree only where distributivity holds, which it does on finite entries: `expanded_eq_negSq`
  pulls the entries back to real numbers, pushes the coercion through sums, products and differences, and closes with the
  ring identity  2ab - a² - b² = -(a - b)²  summed over the features. A mean of real numbers is real (`proto_real`).
-/
import Idealize.ShloMosaic.PureOps.Ideal
import Idealize.ShloMosaic.PureOps.Ideal.Laws
import Idealize.ShloMosaic.Lib.ValueIdx

noncomputable section

open scoped BigOperators

namespace Cert.ProtoDist

open Idealize.ShloMosaic Idealize.ShloMosaic.ValueIdx

/-! ## The two literals -/

/-- The pattern of `4.0` denotes the real number 4. -/
theorem ofBits_four : Ideal.ofBits .f32 0x40800000#32 = ((4 : ℝ) : EReal) := by
  simp [Ideal.ofBits, Ideal.ieee, -EReal.coe_mul]; norm_num

/-- The pattern of `2.0` denotes the real number 2. -/
theorem ofBits_two : Ideal.ofBits .f32 0x40000000#32 = ((2 : ℝ) : EReal) := by
  simp [Ideal.ofBits, Ideal.ieee, -EReal.coe_mul]; norm_num

/-! ## Coercion of a finite sum of reals -/

/-- The coercion of a finite sum of real numbers is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## The prototype, and the two forms of the distance -/

/-- The prototype of a class at feature `k`: the sum of its four support rows there, divided by four. -/
def proto (s : Fin 4 → Fin 512 → EReal) (k : Fin 512) : EReal :=
  Ideal.div (∑ j : Fin 4, s j k) (Ideal.ofBits .f32 0x40800000#32)

/-- Minus the squared distance through the polarization identity: twice the inner product, minus the two squared norms. -/
def expanded (q p : Fin 512 → EReal) : EReal :=
  Ideal.ofBits .f32 0x40000000#32 * (∑ k : Fin 512, q k * p k) - (∑ k : Fin 512, q k * q k) - ∑ k : Fin 512, p k * p k

/-- Minus the squared distance as the definition has it: minus the sum of the squared differences. -/
def negSq (q p : Fin 512 → EReal) : EReal :=
  -(∑ k : Fin 512, (q k - p k) * (q k - p k))

/-- The mean of four real numbers is a real number. -/
theorem proto_real (s : Fin 4 → Fin 512 → EReal) (hs : ∀ j k, ∃ r : ℝ, s j k = (r : EReal)) (k : Fin 512) :
    ∃ r : ℝ, proto s k = (r : EReal) := by
  choose sr hsr using hs
  refine ⟨(∑ j : Fin 4, sr j k) * (1 / 4), ?_⟩
  unfold proto
  rw [ofBits_four, Ideal.div_coe (by norm_num : (4 : ℝ) ≠ 0)]
  simp only [hsr, ← coe_sum, ← EReal.coe_mul]

/-- ON FINITE ENTRIES the two forms agree: feature by feature 2ab - a² - b² = -(a - b)², and on real numbers sums,
    products and differences commute with the coercion into the extended reals. -/
theorem expanded_eq_negSq (q p : Fin 512 → EReal) (hq : ∀ k, ∃ r : ℝ, q k = (r : EReal))
    (hp : ∀ k, ∃ r : ℝ, p k = (r : EReal)) : expanded q p = negSq q p := by
  choose qr hqr using hq
  choose pr hpr using hp
  unfold expanded negSq
  simp only [hqr, hpr, ofBits_two, ← EReal.coe_mul, ← EReal.coe_sub, ← coe_sum, ← EReal.coe_neg]
  refine congrArg _ ?_
  rw [Finset.mul_sum, ← Finset.sum_sub_distrib, ← Finset.sum_sub_distrib, ← Finset.sum_neg_distrib]
  exact Finset.sum_congr rfl fun k _ => by ring

/-! ## The result array, entry by entry -/

/-- Entry (b, r, w) of the result, in the expanded form: row `r` of batch `b`'s queries against the prototype of class `w`,
    the mean of rows (b, w, 0..3) of the supports arranged [batch, class, shot, feature]. The batch extent is a parameter:
    the same formula reads a whole array and one of its batch blocks. -/
def distAt {B : Nat} (q : (⟨3, ![B, 1024, 512]⟩ : Shape).Idx → EReal) (s : (⟨4, ![B, 64, 4, 512]⟩ : Shape).Idx → EReal)
    (b : Fin B) (r : Fin 1024) (w : Fin 64) : EReal :=
  expanded (fun k => q (ix3 b r k)) (proto fun j k => s (ix4 b w j k))

/-- The same entry as the definition has it. -/
def refAt {B : Nat} (q : (⟨3, ![B, 1024, 512]⟩ : Shape).Idx → EReal) (s : (⟨4, ![B, 64, 4, 512]⟩ : Shape).Idx → EReal)
    (b : Fin B) (r : Fin 1024) (w : Fin 64) : EReal :=
  negSq (fun k => q (ix3 b r k)) (proto fun j k => s (ix4 b w j k))

/-- On arrays of finite entries the two readings of an entry agree. -/
theorem distAt_eq_refAt {B : Nat} (q : (⟨3, ![B, 1024, 512]⟩ : Shape).Idx → EReal)
    (s : (⟨4, ![B, 64, 4, 512]⟩ : Shape).Idx → EReal) (hq : ∀ i, ∃ x : ℝ, q i = (x : EReal))
    (hs : ∀ i, ∃ x : ℝ, s i = (x : EReal)) (b : Fin B) (r : Fin 1024) (w : Fin 64) :
    distAt q s b r w = refAt q s b r w :=
  expanded_eq_negSq _ _ (fun k => hq _) (proto_real _ (fun j k => hs _))

end Cert.ProtoDist

end
-- ==== Proof.RefRead.lean ====
/-
  The definition's side: the host program's result, read one entry at a time.

  The host program arranges the supports [batch, class, shot, feature], sums over the shot axis and divides by four (the
  prototypes), repeats queries and prototypes along each other's row axis, subtracts, squares, sums over the features and
  negates. Read at entry (b, r, w) every repetition falls away: the feature-`k` term is (q[b,r,k] - proto[b,w,k])², so the
  entry is minus the squared distance of query row (b, r) from prototype (b, w) — `Cert.ProtoDist.refAt` of the queries and
  the re-arranged supports. The two host sums start from the literal zero, which adds nothing.
-/
import proofs.«149047_j27393301414373_2_alg».proof.Proof.Gen.ReferenceIdeal.Read
import proofs.«149047_j27393301414373_2_alg».proof.Proof.Spec

noncomputable section

open scoped BigOperators

namespace Cert.ProtoDist.Ref

open Cert.ReferenceIdeal Cert.ReferenceIdeal.Read Idealize.ShloMosaic Idealize.ShloMosaic.ValueIdx Cert.ProtoDist

/-- Feature `k` of the summand at entry (b, r, w) reads the queries at (b, r, k): the two repetitions leave the query's
    own coordinates alone. -/
theorem query_idx (b : Fin 8) (r : Fin 1024) (w : Fin 64) (k : Fin 512) :
    idx_main_v4 (idx_main_v6 (idx_main_v10 (ix3 b r w) k)) = ix3 b r k :=
  funext fun a => Fin.ext (by match a with | ⟨0, _⟩ => rfl | ⟨1, _⟩ => rfl | ⟨2, _⟩ => rfl)

/-- … and the prototypes at (b, w, k). -/
theorem proto_idx (b : Fin 8) (r : Fin 1024) (w : Fin 64) (k : Fin 512) :
    idx_main_v5 (idx_main_v7 (idx_main_v10 (ix3 b r w) k)) = ix3 b w k :=
  funext fun a => Fin.ext (by match a with | ⟨0, _⟩ => rfl | ⟨1, _⟩ => rfl | ⟨2, _⟩ => rfl)

/-- Shot `j` of the sum behind prototype (b, w, k) is the re-arranged supports at (b, w, j, k). -/
theorem shot_idx (b : Fin 8) (w : Fin 64) (k : Fin 512) (j : Fin 4) :
    idx_main_v1 (ix3 b w k) j = ix4 b w j k :=
  funext fun a => Fin.ext (by match a with | ⟨0, _⟩ => rfl | ⟨1, _⟩ => rfl | ⟨2, _⟩ => rfl | ⟨3, _⟩ => rfl)

/-- The prototypes' stage at (b, w, k) is the mean of the four support rows of class (b, w) at feature `k`. -/
theorem protoStage_apply (x1 : (⟨S8x256x512, .f32⟩ : BufTy).Contents (Elt Ideal)) (b : Fin 8) (w : Fin 64) (k : Fin 512) :
    val_main_v3 (F := Ideal) x1 (ix3 b w k) = proto (fun j k => val_main_v0 (F := Ideal) x1 (ix4 b w j k)) k := by
  rw [val_main_v3_apply, val_main_v1_apply, val_main_v2_apply, val_main_cst_0_apply, val_main_cst_apply]
  simp only [shot_idx, Ideal.hostDivf_def, Ideal.ofBits_def, Ideal.ofBits_zero_f32, zero_add]
  rfl

/-- THE HOST PROGRAM'S RESULT at entry (b, r, w) is minus the squared distance of query row (b, r) from the prototype of
    class (b, w). -/
theorem result_apply (x0 : (⟨S8x1024x512, .f32⟩ : BufTy).Contents (Elt Ideal)) (x1 : (⟨S8x256x512, .f32⟩ : BufTy).Contents (Elt Ideal))
    (b : Fin 8) (r : Fin 1024) (w : Fin 64) :
    val_main_v11 (F := Ideal) x0 x1 (ix3 b r w) = refAt x0 (val_main_v0 (F := Ideal) x1) b r w := by
  rw [val_main_v11_apply, val_main_v10_apply, val_main_cst_1_apply]
  simp only [val_main_v9_apply, val_main_v8_apply, val_main_v6_apply, val_main_v4_apply, val_main_v7_apply, val_main_v5_apply,
    query_idx, proto_idx, protoStage_apply, Ideal.hostNegf_def, Ideal.negf_def, Ideal.subf_def, Ideal.mulf_def, Ideal.ofBits_def,
    Ideal.ofBits_zero_f32, zero_add]
  rfl

end Cert.ProtoDist.Ref

end
-- ==== Proof.Payload.lean ====
/-
  The kernel body's arithmetic, read one entry at a time.

  One grid step holds two batch elements: a query block [2, 1024, 512] and a support block [2, 64, 4, 512]. The body sums
  the supports over the shot axis and divides by four (the prototypes), takes the row sums of squares of the queries and of
  the prototypes, multiplies queries by prototypes along the feature axis on the matrix unit (the operands' change of
  format is the identity on the exact values), and combines: twice the product, minus the queries' squared norms repeated
  along the classes, minus the prototypes' squared norms repeated along the query rows. Read at (b, r, w) each operation
  is a plain sum or a re-indexing, and the whole is `Cert.ProtoDist.distAt` of the two blocks.
-/
import proofs.«149047_j27393301414373_2_alg».proof.Proof.Gen.KernelIdeal.Skeleton
import proofs.«149047_j27393301414373_2_alg».proof.Proof.Spec
import Idealize.ShloMosaic.Lib.Pipeline.Value
import Idealize.ShloMosaic.Lib.ValueIdx
import Idealize.ShloMosaic.PureOps.Ideal.Laws

noncomputable section

open scoped BigOperators

namespace Cert.ProtoDist.Body

open Cert.KernelIdeal Cert.KernelIdeal.Gen Idealize.ShloMosaic Idealize.ShloMosaic.ValueIdx Cert.ProtoDist

/-! ## Sums along one axis -/

/-- A sum over the last of three axes, read at (a, b): the sum over the last coordinate. -/
theorem sumLast_apply {A B C : Nat} (src : FVec Ideal ⟨3, ![A, B, C]⟩ .f32)
    (h : Shape.Reduces ⟨3, ![A, B, C]⟩ [2] ⟨2, ![A, B]⟩) (hφ : FKind.Formats .f32)
    (hacc : (0x00000000#32 : BitVec 32) = FKind.add.neutral .f32 hφ) (a : Fin A) (b : Fin B) :
    multiReduction .add [2] ⟨2, ![A, B]⟩ src 0x00000000#32 h hφ hacc (ix2 a b) = ∑ k : Fin C, src (ix3 a b k) := by
  refine (Ideal.multiReduction_add_single src _ h hφ hacc (ix2 a b)).trans ?_
  exact Finset.sum_congr rfl fun k _ => congrArg src (funext fun d => Fin.ext (by
    match d with | ⟨0, _⟩ => rfl | ⟨1, _⟩ => rfl | ⟨2, _⟩ => rfl))

/-- A sum over the third of four axes, read at (a, b, d): the sum over the third coordinate. -/
theorem sumThird_apply {A B C D : Nat} (src : FVec Ideal ⟨4, ![A, B, C, D]⟩ .f32)
    (h : Shape.Reduces ⟨4, ![A, B, C, D]⟩ [2] ⟨3, ![A, B, D]⟩) (hφ : FKind.Formats .f32)
    (hacc : (0x00000000#32 : BitVec 32) = FKind.add.neutral .f32 hφ) (a : Fin A) (b : Fin B) (d : Fin D) :
    multiReduction .add [2] ⟨3, ![A, B, D]⟩ src 0x00000000#32 h hφ hacc (ix3 a b d) = ∑ j : Fin C, src (ix4 a b j d) := by
  refine (Ideal.multiReduction_add_single src _ h hφ hacc (ix3 a b d)).trans ?_
  exact Finset.sum_congr rfl fun j _ => congrArg src (funext fun e => Fin.ext (by
    match e with | ⟨0, _⟩ => rfl | ⟨1, _⟩ => rfl | ⟨2, _⟩ => rfl | ⟨3, _⟩ => rfl))

/-! ## A column and a row repeated across a block -/

/-- A value per (batch, query row), given a trailing unit axis and repeated along the classes, reads its own entry. -/
theorem perRow_apply (v : FVec Ideal S2x1024 .f32) (h1 : S2x1024.ShapeCasts S2x1024x1) (h2 : S2x1024x1.Broadcasts S2x1024x64)
    (b : Fin 2) (r : Fin 1024) (w : Fin 64) :
    broadcastTo S2x1024x64 (shapeCast S2x1024x1 v h1) h2 (ix3 b r w) = v (ix2 b r) := by
  refine (broadcastTo_apply _ h2 (ix3 b r w) (ix3 b r (0 : Fin 1)) fun a => ?_).trans ?_
  · match a with
    | ⟨0, _⟩ => show b.val = if (2 : Nat) = 1 then 0 else b.val; rw [if_neg (by decide)]
    | ⟨1, _⟩ => show r.val = if (1024 : Nat) = 1 then 0 else r.val; rw [if_neg (by decide)]
    | ⟨2, _⟩ => show 0 = if (1 : Nat) = 1 then 0 else w.val; rw [if_pos rfl]
  · exact shapeCast_apply v h1 (ix3 b r (0 : Fin 1)) (ix2 b r) (by
      rw [Shape.rowMajor_val_two, Shape.rowMajor_val_three]
      show b.val * 1024 + r.val = (b.val * 1024 + r.val) * 1 + 0
      omega)

/-- A value per (batch, class), given a middle unit axis and repeated along the query rows, reads its own entry. -/
theorem perClass_apply (v : FVec Ideal S2x64 .f32) (h1 : S2x64.ShapeCasts S2x1x64) (h2 : S2x1x64.Broadcasts S2x1024x64)
    (b : Fin 2) (r : Fin 1024) (w : Fin 64) :
    broadcastTo S2x1024x64 (shapeCast S2x1x64 v h1) h2 (ix3 b r w) = v (ix2 b w) := by
  refine (broadcastTo_apply _ h2 (ix3 b r w) (ix3 b (0 : Fin 1) w) fun a => ?_).trans ?_
  · match a with
    | ⟨0, _⟩ => show b.val = if (2 : Nat) = 1 then 0 else b.val; rw [if_neg (by decide)]
    | ⟨1, _⟩ => show 0 = if (1 : Nat) = 1 then 0 else r.val; rw [if_pos rfl]
    | ⟨2, _⟩ => show w.val = if (64 : Nat) = 1 then 0 else w.val; rw [if_neg (by decide)]
  · exact shapeCast_apply v h1 (ix3 b (0 : Fin 1) w) (ix2 b w) (by
      rw [Shape.rowMajor_val_two, Shape.rowMajor_val_three]
      show b.val * 64 + w.val = (b.val * 1 + 0) * 64 + w.val
      omega)

/-! ## The matrix product: batch × (query rows · features) × (classes · features) -/

/-- The product's dimension numbers: batch axis 0 of both operands, query rows and classes free, features contracted. -/
abbrev crossDims : DotDims S2x1024x512 S2x64x512 S2x1024x64 := dot_S2x1024x512_S2x64x512_S2x1024x64_2_2_1_1_0_0

theorem lhs_0 (i : S2x1024x64.Idx) (q : crossDims.contr.Idx) : (crossDims.lhsIdx i q 0).val = (i 0).val := by
  unfold DotDims.lhsIdx
  rw [dif_pos (show (0 : Fin S2x1024x512.rank) ∈ crossDims.lhsBatch by decide)]
  rfl
theorem lhs_1 (i : S2x1024x64.Idx) (q : crossDims.contr.Idx) : (crossDims.lhsIdx i q 1).val = (i 1).val := by
  unfold DotDims.lhsIdx
  rw [dif_neg (show ¬(1 : Fin S2x1024x512.rank) ∈ crossDims.lhsBatch by decide),
    dif_pos (show (1 : Fin S2x1024x512.rank) ∈ crossDims.lhsNonContracting by decide)]
  rfl
theorem lhs_2 (i : S2x1024x64.Idx) (q : crossDims.contr.Idx) : (crossDims.lhsIdx i q 2).val = (q ⟨0, by decide⟩).val :=
  crossDims.lhsIdx_val_of_single rfl i q
theorem rhs_0 (i : S2x1024x64.Idx) (q : crossDims.contr.Idx) : (crossDims.rhsIdx i q 0).val = (i 0).val := by
  unfold DotDims.rhsIdx
  rw [dif_pos (show (0 : Fin S2x64x512.rank) ∈ crossDims.rhsBatch by decide)]
  rfl
theorem rhs_1 (i : S2x1024x64.Idx) (q : crossDims.contr.Idx) : (crossDims.rhsIdx i q 1).val = (i 2).val := by
  unfold DotDims.rhsIdx
  rw [dif_neg (show ¬(1 : Fin S2x64x512.rank) ∈ crossDims.rhsBatch by decide),
    dif_pos (show (1 : Fin S2x64x512.rank) ∈ crossDims.rhsNonContracting by decide)]
  rfl
theorem rhs_2 (i : S2x1024x64.Idx) (q : crossDims.contr.Idx) : (crossDims.rhsIdx i q 2).val = (q ⟨0, by decide⟩).val :=
  crossDims.rhsIdx_val_of_single rfl i q

/-- The product into a zero accumulator, read at (b, r, w): the sum over the features of the left operand at (b, r, k)
    times the right operand at (b, w, k). -/
theorem cross_apply (lhs : FVec Ideal S2x1024x512 .bf16) (rhs : FVec Ideal S2x64x512 .bf16) (b : Fin 2) (r : Fin 1024) (w : Fin 64) :
    matmul crossDims none lhs rhs (constant S2x1024x64 .f32 0x00000000#32) (ix3 b r w)
      = ∑ k : Fin 512, lhs (ix3 b r k) * rhs (ix3 b w k) := by
  simp only [matmul]
  rw [Ideal.matmul_constant_zero_apply, ← Equiv.sum_comp (contrEquiv1 crossDims 512 rfl rfl).symm]
  refine Finset.sum_congr rfl fun k _ => ?_
  have hk := contrEquiv1_symm_val crossDims 512 rfl rfl k
  have el : crossDims.lhsIdx (ix3 b r w) ((contrEquiv1 crossDims 512 rfl rfl).symm k) = ix3 b r k := funext fun a => Fin.ext (by
    match a with
    | ⟨0, _⟩ => exact lhs_0 _ _
    | ⟨1, _⟩ => exact lhs_1 _ _
    | ⟨2, _⟩ => exact (lhs_2 _ _).trans hk)
  have er : crossDims.rhsIdx (ix3 b r w) ((contrEquiv1 crossDims 512 rfl rfl).symm k) = ix3 b w k := funext fun a => Fin.ext (by
    match a with
    | ⟨0, _⟩ => exact rhs_0 _ _
    | ⟨1, _⟩ => exact rhs_1 _ _
    | ⟨2, _⟩ => exact (rhs_2 _ _).trans hk)
  rw [el, er]

/-! ## The prototypes of a block, and the payload -/

/-- The block's prototypes at (b, w, k): the four support rows of class (b, w) summed at feature `k`, divided by four. (The
    shape cast in front of the sum is to the same shape.) -/
theorem protoBlock_apply (x1 : Vec Ideal S2x64x4x512 .f32) (h0 : S2x64x4x512.ShapeCasts S2x64x4x512)
    (h : S2x64x4x512.Reduces [2] S2x64x512) (hφ : FKind.Formats .f32)
    (hacc : (0x00000000#32 : BitVec 32) = FKind.add.neutral .f32 hφ) (b : Fin 2) (w : Fin 64) (k : Fin 512) :
    divf (multiReduction .add [2] S2x64x512 (shapeCast S2x64x4x512 x1 h0) 0x00000000#32 h hφ hacc)
        (broadcast S2x64x512 (FloatOps.ofBits (F := Ideal) .f32 0x40800000#32)) (ix3 b w k)
      = proto (fun j k => x1 (ix4 b w j k)) k := by
  rw [divf_apply, shapeCast_self]
  unfold proto
  exact congrArg₂ Ideal.div (sumThird_apply x1 h hφ hacc b w k) rfl

/-- THE BODY'S STORED VALUE at (b, r, w): twice the inner product of query row (b, r) with prototype (b, w), minus the two
    squared norms — the expanded form of minus the squared distance, of the two blocks. -/
theorem pay_apply (x1 : Vec Ideal S2x64x4x512 .f32) (x0 : Vec Ideal S2x1024x512 .f32) (b : Fin 2) (r : Fin 1024) (w : Fin 64) :
    k0_pay1 (F := Ideal) x1 x0 (ix3 b r w) = distAt (B := 2) x0 x1 b r w := by
  unfold k0_pay1
  dsimp only
  rw [subf_apply, subf_apply, mulf_apply, broadcast_apply]
  unfold distAt expanded
  refine congrArg₂ (· - ·) (congrArg₂ (· - ·) (congrArg₂ (· * ·) rfl ?_) ?_) ?_
  · refine (cross_apply _ _ b r w).trans (Finset.sum_congr rfl fun k _ => ?_)
    rw [truncf_apply, truncf_apply]
    exact congrArg₂ (· * ·) rfl (protoBlock_apply x1 _ _ _ _ b w k)
  · refine (perRow_apply _ _ _ b r w).trans ((sumLast_apply _ _ _ _ b r).trans (Finset.sum_congr rfl fun k _ => ?_))
    rfl
  · refine (perClass_apply _ _ _ b r w).trans ((sumLast_apply _ _ _ _ b w).trans (Finset.sum_congr rfl fun k _ => ?_))
    rw [mulf_apply]
    exact congrArg₂ (· * ·) (protoBlock_apply x1 _ _ _ _ b w k) (protoBlock_apply x1 _ _ _ _ b w k)

end Cert.ProtoDist.Body

end
-- ==== Proof.Blocks.lean ====
/-
  From the blocks to the whole result array.

  The grid has four points; point `t` reads batch elements 2t and 2t+1 of the queries [8, 1024, 512] and of the supports
  arranged [8, 64, 4, 512], and writes batch elements 2t and 2t+1 of the result [8, 1024, 64]. All three index maps send
  `t` to block (t, 0, …, 0), so an entry (b, r, k) of a block sits at (2t + b, r, k) of its array. Since the body's value at
  (b, r, w) depends only on query row (b, r) and support rows (b, w, ·) of the blocks, what point `t` writes back is block
  `t` of ONE function of the whole arrays: entry (i₀, i₁, i₂) is the expanded form of minus the squared distance of query
  row (i₀, i₁) from the prototype of class (i₀, i₂). The four blocks cover the result (batch element i₀ lies in block
  i₀ / 2), so the array ends holding that function. The supports' arrangement [8, 64, 4, 512] is the host's reshape of the
  argument [8, 256, 512], carried as it stands.
-/
import proofs.«149047_j27393301414373_2_alg».proof.Proof.Gen.KernelIdeal.Value
import proofs.«149047_j27393301414373_2_alg».proof.Proof.Payload
import Idealize.ShloMosaic.Lib.Pipeline.Value
import Idealize.ShloMosaic.Lib.StableHlo.Run

noncomputable section

namespace Cert.ProtoDist.Blocks

open Cert.KernelIdeal Cert.KernelIdeal.Gen Cert.KernelIdeal.Value Idealize.ShloMosaic Idealize.ShloMosaic.TcCoe Idealize.SL.Sem
open Idealize.ShloMosaic.ValueIdx Cert.ProtoDist
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-! ## The result as one function of the arrays -/

/-- The result array as a function of the queries and of the supports arranged [batch, class, shot, feature]. -/
def result (q : S8x1024x512.Idx → EReal) (s : S8x64x4x512.Idx → EReal) : S8x1024x64.Idx → EReal :=
  fun i => distAt q s (i 0) (i 1) (i 2)

/-- The supports as the region finds them: the host's re-arrangement of the second argument. -/
theorem supports_at_entry (c : Dev nD) :
    (V m c main_v0 : S8x64x4x512.Idx → EReal)
      = shapeCast S8x64x4x512 (m ((c : Thread nD τ).loc main_arg1)) shapeCasts_S8x256x512_S8x64x4x512 := by
  dsimp only [Gen.V, Gen.hostOps0]
  after_results
  rfl

/-! ## One block is a block of `result` -/

/-- The body's value on blocks that are batch elements 2n, 2n+1 of the arrays `q` and `s`: at block entry `y` it is `result`
    at the array entry `i` with the same row and class and batch element 2n + y₀. -/
theorem block_entry (q : S8x1024x512.Idx → EReal) (s : S8x64x4x512.Idx → EReal) (x0 : Vec Ideal S2x1024x512 .f32)
    (x1 : Vec Ideal S2x64x4x512 .f32) (n : Nat)
    (h0 : ∀ (b : Fin 2) (r : Fin 1024) (k : Fin 512) (b' : Fin 8), b'.val = n * 2 + b.val → x0 (ix3 b r k) = q (ix3 b' r k))
    (h1 : ∀ (b : Fin 2) (w : Fin 64) (j : Fin 4) (k : Fin 512) (b' : Fin 8), b'.val = n * 2 + b.val →
      x1 (ix4 b w j k) = s (ix4 b' w j k))
    (y : S2x1024x64.Idx) (i : S8x1024x64.Idx) (hi0 : (i 0).val = n * 2 + (y 0).val) (hi1 : (i 1).val = (y 1).val)
    (hi2 : (i 2).val = (y 2).val) :
    k0_pay1 (F := Ideal) x1 x0 y = result q s i := by
  obtain ⟨b, r, w, rfl⟩ : ∃ (b : Fin 2) (r : Fin 1024) (w : Fin 64), y = ix3 b r w := ⟨y 0, y 1, y 2, eq_ix3 y⟩
  obtain ⟨b', r', w', rfl⟩ : ∃ (b' : Fin 8) (r' : Fin 1024) (w' : Fin 64), i = ix3 b' r' w' := ⟨i 0, i 1, i 2, eq_ix3 i⟩
  obtain rfl : r' = r := Fin.ext hi1
  obtain rfl : w' = w := Fin.ext hi2
  rw [Body.pay_apply]
  show distAt x0 x1 b r' w' = distAt q s b' r' w'
  unfold distAt
  simp only [h0 _ _ _ b' hi0, h1 _ _ _ _ b' hi0]

/-- The printed index maps over the four grid points: every window's block index is (t, 0, …, 0). -/
theorem idx_facts : ∀ t : Fin cfg0.N, win0_0.index t (0 : Fin 3) = win0_2.index t (0 : Fin 3)
    ∧ win0_0.index t (1 : Fin 3) = 0 ∧ win0_0.index t (2 : Fin 3) = 0
    ∧ win0_1.index t (0 : Fin 4) = win0_2.index t (0 : Fin 3)
    ∧ win0_1.index t (1 : Fin 4) = 0 ∧ win0_1.index t (2 : Fin 4) = 0 ∧ win0_1.index t (3 : Fin 4) = 0
    ∧ win0_2.index t (0 : Fin 3) ≤ 3 ∧ win0_2.index t (1 : Fin 3) = 0 ∧ win0_2.index t (2 : Fin 3) = 0 :=
  (by decide +kernel : ∀ t : Fin grid0.N, _)

/-- Every pair of batch elements is some point's block. -/
theorem idx_onto : ∀ q0 : Fin 4, ∃ t : Fin cfg0.N, win0_2.index t = ![q0.val, 0, 0] :=
  (by decide +kernel : ∀ q0 : Fin 4, ∃ t : Fin grid0.N, win0_2.index t = ![q0.val, 0, 0])

/-- WHAT POINT `t` WRITES BACK is block `t` of `result` of the arrays as the region finds them. -/
theorem flushed_eq (c : Dev nD) (t : Fin cfg0.N) :
    (dats m 0 c).flushed 2 t
      = ((cfg0.win 2).blk t).view.read (Elt Ideal) (result (V m c main_arg0) (V m c main_v0)) := by
  rw [Value.flushed2]
  unfold out0_2
  rw [View.canon_unit_zero hz3]
  simp only [View.ld_unit_zero (S := S2x64x4x512) hz4, View.ld_unit_zero (S := S2x1024x512) hz3]
  obtain ⟨e0, e1, e2, e3, e4, e5, e6, e7, e8, e9⟩ := idx_facts t
  funext y
  show k0_pay1 (F := Ideal) (iblk m c 1 t) (iblk m c 0 t) y
    = result (V m c main_arg0) (V m c main_v0) (((cfg0.win 2).blk t).view.emb y)
  refine block_entry (V m c main_arg0) (V m c main_v0) (iblk m c 0 t) (iblk m c 1 t) (win0_2.index t (0 : Fin 3)) ?_ ?_ y _ ?_ ?_ ?_
  · intro b r k b' hb'
    show V m c main_arg0 (((cfg0.win 0).blk t).view.emb (ix3 b r k)) = V m c main_arg0 (ix3 b' r k)
    refine congrArg _ (funext fun a => Fin.ext ?_)
    match a with
    | ⟨0, _⟩ => show win0_0.index t (0 : Fin 3) * 2 + 1 * b.val = b'.val; omega
    | ⟨1, _⟩ => show win0_0.index t (1 : Fin 3) * 1024 + 1 * r.val = r.val; omega
    | ⟨2, _⟩ => show win0_0.index t (2 : Fin 3) * 512 + 1 * k.val = k.val; omega
  · intro b w j k b' hb'
    show V m c main_v0 (((cfg0.win 1).blk t).view.emb (ix4 b w j k)) = V m c main_v0 (ix4 b' w j k)
    refine congrArg _ (funext fun a => Fin.ext ?_)
    match a with
    | ⟨0, _⟩ => show win0_1.index t (0 : Fin 4) * 2 + 1 * b.val = b'.val; omega
    | ⟨1, _⟩ => show win0_1.index t (1 : Fin 4) * 64 + 1 * w.val = w.val; omega
    | ⟨2, _⟩ => show win0_1.index t (2 : Fin 4) * 4 + 1 * j.val = j.val; omega
    | ⟨3, _⟩ => show win0_1.index t (3 : Fin 4) * 512 + 1 * k.val = k.val; omega
  · show win0_2.index t (0 : Fin 3) * 2 + 1 * (y 0).val = win0_2.index t (0 : Fin 3) * 2 + (y 0).val; omega
  · show win0_2.index t (1 : Fin 3) * 1024 + 1 * (y 1).val = (y 1).val; omega
  · show win0_2.index t (2 : Fin 3) * 64 + 1 * (y 2).val = (y 2).val; omega

/-! ## The cover, the final array, the run -/

/-- An entry of the result is in point `t`'s block iff each coordinate is in the block's range on its axis. -/
theorem mem_blk (t : Fin cfg0.N) (i : S8x1024x64.Idx) :
    i ∈ ((cfg0.win 2).blk t).view.set ↔ ∀ a : Fin 3, win0_2.index t a * S2x1024x64.size a ≤ (i a).val
      ∧ (i a).val < win0_2.index t a * S2x1024x64.size a + S2x1024x64.size a := by
  show i ∈ ((View.whole main_v1).slice (win0_2.rect t)).set ↔ _
  rw [View.set_slice_whole, Rect.mem_set_unit]
  exact Iff.rfl

/-- Every entry of the result is in some point's block: batch element i₀ is in block i₀ / 2. -/
theorem cover (i : S8x1024x64.Idx) : ∃ t : Fin cfg0.N, (cfg0.win 2).flush t = true ∧ i ∈ ((cfg0.win 2).blk t).view.set := by
  have hi0 : (i 0).val < 8 := (i 0).isLt
  have hi1 : (i 1).val < 1024 := (i 1).isLt
  have hi2 : (i 2).val < 64 := (i 2).isLt
  obtain ⟨t, ht⟩ := idx_onto ⟨(i 0).val / 2, by omega⟩
  have q0 : win0_2.index t (0 : Fin 3) = (i 0).val / 2 := congrFun ht 0
  have q1 : win0_2.index t (1 : Fin 3) = 0 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 2 ≤ (i 0).val ∧ (i 0).val < win0_2.index t (0 : Fin 3) * 2 + 2; omega
  | ⟨1, _⟩ => show win0_2.index t (1 : Fin 3) * 1024 ≤ (i 1).val ∧ (i 1).val < win0_2.index t (1 : Fin 3) * 1024 + 1024; omega
  | ⟨2, _⟩ => show win0_2.index t (2 : Fin 3) * 64 ≤ (i 2).val ∧ (i 2).val < win0_2.index t (2 : Fin 3) * 64 + 64; omega

/-- THE RESULT ARRAY after the run: `result` of the first argument and of the re-arranged second argument. -/
theorem final (c : Dev nD) :
    (dats m 0 c).arrAt 2 cfg0.N
      = result (m ((c : Thread nD τ).loc main_arg0))
          (shapeCast S8x64x4x512 (m ((c : Thread nD τ).loc main_arg1)) shapeCasts_S8x256x512_S8x64x4x512) := by
  rw [← supports_at_entry m c, ← V_main_arg0 m c]
  exact (dats m 0 c).arrAt_eq_of_cover 2 _ (fun t _ => flushed_eq m c t) cover

/-- The kernel's run, read: the result array at `result` of the arguments, the arguments unchanged. -/
theorem run : θ_run defs (onTc (τ := τ) (main (F := Ideal))) ⟨m, fun _ => 0, ρ⟩ fun r => ∀ c : Dev nD,
      r.2.mem ((c : Thread nD τ).loc main_v1)
        = result (m ((c : Thread nD τ).loc main_arg0))
            (shapeCast S8x64x4x512 (m ((c : Thread nD τ).loc main_arg1)) shapeCasts_S8x256x512_S8x64x4x512)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.ProtoDist.Blocks

end
-- ==== Proof.Finite.lean ====
/-
  What the precondition says of the inputs.

  The precondition compares the absolute value of every entry of both inputs with +∞ ("strictly below") and takes the
  conjunction of all the comparisons. An extended real whose absolute value max(x, -x) is strictly below +∞ is neither
  infinity, so it is a real number. Hence under the precondition every entry of the queries and of the supports is real.
-/
import proofs.«149047_j27393301414373_2_alg».proof.Proof.Gen.Pre_finite_inputs
import Idealize.ShloMosaic.Lib.ReduceAll
import Idealize.ShloMosaic.Lib.ValueIdx
import Idealize.ShloMosaic.PureOps.Ideal

noncomputable section

namespace Cert.ProtoDist.Finite

open Idealize.ShloMosaic Cert.Pre_finite_inputs

/-- The scalar shape has one index. -/
instance : Subsingleton S_.Idx := ⟨fun _ _ => funext fun d => d.elim0⟩

/-- The pattern the precondition compares against denotes +∞. -/
theorem ofBits_inf : Ideal.ofBits .f32 0x7F800000#32 = ⊤ := by
  simp [Ideal.ofBits, Ideal.ieee]

/-- An extended real whose absolute value is strictly below +∞ is a real number. -/
theorem real_of_abs_lt_top (x : EReal) (h : Ideal.cmp .olt (max x (-x)) (Ideal.ofBits .f32 0x7F800000#32) = 1#1) :
    ∃ r : ℝ, x = (r : EReal) := by
  rw [ofBits_inf] at h
  induction x using EReal.rec with
  | bot => simp [Ideal.cmp] at h
  | top => simp [Ideal.cmp] at h
  | coe r => exact ⟨r, rfl⟩

/-- UNDER THE PRECONDITION every entry of both inputs is a real number. -/
theorem real_of_pre (x0 : FVec Ideal S8x1024x512 .f32) (x1 : FVec Ideal S8x256x512 .f32)
    (h : fn (F := Ideal) x0 x1 = fun _ => 1#1) :
    (∀ i, ∃ r : ℝ, x0 i = (r : EReal)) ∧ ∀ i, ∃ r : ℝ, x1 i = (r : EReal) := by
  have h0 := congrFun h ValueIdx.ix0
  dsimp only [fn] at h0
  obtain ⟨ha, hb⟩ := IntOp.andi_eq_one.1 h0
  exact ⟨fun i => real_of_abs_lt_top _ (Host.reduce_andi_all _ _ _ _ _ ha i),
    fun i => real_of_abs_lt_top _ (Host.reduce_andi_all _ _ _ _ _ hb i)⟩

end Cert.ProtoDist.Finite

end
-- ==== Proof.lean ====
/-
  The certificate of the prototype-distance kernel against its definition.

  THE CLAIM. For queries q[8, 1024, 512] and supports s[8, 256, 512] with finite entries, the kernel and the definition
  both end with the array

      out[t, r, w] = -‖q[t, r, ·] - p[t, w, ·]‖²,      p[t, w, ·] = (s[t, 4w, ·] + … + s[t, 4w+3, ·]) / 4,

  equal entry by entry as extended reals, and neither disturbs its arguments.

  THE TWO SIDES. The definition forms the differences q - p for every (row, class) pair, squares, sums over the 512
  features and negates. The kernel never forms the differences: per pair of batch elements it takes the matrix product of
  the queries with the prototypes over the features and combines it with the two families of squared norms,
  2·⟨q, p⟩ - ‖q‖² - ‖p‖². The operands of the product pass through a narrower format, which on exact values is the
  identity. Both sides build the prototypes by the same sum over four rows and the same division by four.

  THE LAW. 2·⟨q, p⟩ - ‖q‖² - ‖p‖² = -‖q - p‖² holds term by term for real numbers (2ab - a² - b² = -(a - b)²) but not on
  the extended reals at large, where distributivity fails at the infinities; this is where the precondition is used: it
  makes every entry of q and s, hence of p, a real number.

  THE PARTS. `Spec`: the two forms and the law. `RefRead`: the definition's program read at an entry. `Payload`: the
  kernel body's value read at an entry of a block. `Blocks`: the four blocks assembled into the whole array. `Finite`: the
  precondition read as "every entry is real". Here: the five conjuncts. The runs themselves (every weakly fair execution
  terminates without fault, with the arguments unchanged) come from the generated frame and run modules.
-/
import proofs.«149047_j27393301414373_2_alg».proof.Defs
import proofs.«149047_j27393301414373_2_alg».proof.Proof.Gen.Kernel
import proofs.«149047_j27393301414373_2_alg».proof.Proof.Gen.Kernel.Frame
import proofs.«149047_j27393301414373_2_alg».proof.Proof.Gen.KernelIdeal
import proofs.«149047_j27393301414373_2_alg».proof.Proof.Gen.KernelIdeal.Frame
import proofs.«149047_j27393301414373_2_alg».proof.Proof.Gen.KernelIdeal.Value
import proofs.«149047_j27393301414373_2_alg».proof.Proof.Gen.ReferenceIdeal
import proofs.«149047_j27393301414373_2_alg».proof.Proof.Gen.ReferenceIdeal.Run
import proofs.«149047_j27393301414373_2_alg».proof.Proof.Gen.ReferenceIdeal.Read
import proofs.«149047_j27393301414373_2_alg».proof.Proof.Gen.Pre_finite_inputs
import proofs.«149047_j27393301414373_2_alg».proof.Proof.Spec
import proofs.«149047_j27393301414373_2_alg».proof.Proof.RefRead
import proofs.«149047_j27393301414373_2_alg».proof.Proof.Blocks
import proofs.«149047_j27393301414373_2_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx Cert.ProtoDist

/-- The kernel as printed runs and leaves its arguments alone. -/
theorem frame_kernel : Cert.frame_Kernel := fun m ρ _ => Cert.Kernel.Gen.frame m ρ

/-- So does the kernel read on exact values. -/
theorem frame_kernelIdeal : Cert.frame_KernelIdeal := fun m ρ _ => Cert.KernelIdeal.Gen.frame m ρ

/-- So does the definition: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Reading the kernel on exact values rewrote none of its operations, so there is nothing to preserve. -/
theorem preserves : Cert.preserves_Kernel_KernelIdeal := trivial

/-- On finite inputs the kernel's array (the expanded form, block by block) and the definition's array (minus the sum of
    squared differences) are equal entry by entry: the supports' re-arrangement is one and the same on both sides, every
    entry of the queries and of the re-arranged supports is real, and there the two forms agree. -/
theorem algebraic : Cert.algebraic_KernelIdeal_ReferenceIdeal := by
  intro m ρ m' ρ' hpre hagree
  refine ⟨fun c => Blocks.result (m ((c : Thread Cert.KernelIdeal.nD Cert.KernelIdeal.τ).loc Cert.KernelIdeal.main_arg0))
      (shapeCast Cert.KernelIdeal.S8x64x4x512 (m ((c : Thread Cert.KernelIdeal.nD Cert.KernelIdeal.τ).loc Cert.KernelIdeal.main_arg1))
        Cert.KernelIdeal.Facts₀.shapeCasts_S8x256x512_S8x64x4x512),
    Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, (hagree c).1, (hagree c).2]
  obtain ⟨hq, hs⟩ := Finite.real_of_pre _ _ (hpre c)
  funext i
  obtain ⟨b, r, w, rfl⟩ : ∃ (b : Fin 8) (r : Fin 1024) (w : Fin 64), i = ix3 b r w := ⟨i 0, i 1, i 2, eq_ix3 i⟩
  rw [Ref.result_apply]
  exact (distAt_eq_refAt _ _ hq (fun j => hs _) b r w).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
